-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S128x128 : Shape := ⟨2, ![128, 128]⟩
abbrev S512x1 : Shape := ⟨2, ![512, 1]⟩
abbrev S1x512 : Shape := ⟨2, ![1, 512]⟩
abbrev S8x128 : Shape := ⟨2, ![8, 128]⟩
abbrev S1x1 : Shape := ⟨2, ![1, 1]⟩
abbrev S512x512 : Shape := ⟨2, ![512, 512]⟩
abbrev S512 : Shape := ⟨1, ![512]⟩
abbrev S1 : Shape := ⟨1, ![1]⟩
abbrev S16x8x128 : Shape := ⟨3, ![16, 8, 128]⟩
abbrev S16x1x1 : Shape := ⟨3, ![16, 1, 1]⟩
abbrev S16 : Shape := ⟨1, ![16]⟩

abbrev nBuf : Space → Nat
  | .hbm => 43
  | .vmem => 11
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x8192, .f32⟩
  | .hbm, ⟨28, _⟩ => ⟨S1x8192, .f32⟩
  | .hbm, ⟨29, _⟩ => ⟨S128x128, .f32⟩
  | .hbm, ⟨30, _⟩ => ⟨S16x8x128, .f32⟩
  | .hbm, ⟨31, _⟩ => ⟨S16x1x1, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S8x128, .f32⟩
  | .local _ .vmem, ⟨9, _⟩ => ⟨S8x128, .f32⟩
  | .local _ .vmem, ⟨10, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x1_S8192 : S8192x1.ShapeCasts S8192
  reducesTo_S8192_S_d0 : S8192.ReducesTo [0] S_
  h_S_ : 0 < S_.numel
  bcast_S_S8192 : S_.BroadcastsInDim S8192 (![] : Fin 0 → Fin S8192.rank)
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S128x128_S16x8x128 : S128x128.ShapeCasts S16x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x1, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .i1⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .i1⟩
  | .hbm, ⟨70, _⟩ => ⟨S8192x8192, .i1⟩
  | .hbm, ⟨71, _⟩ => ⟨S8192x8192, .i32⟩
  | .hbm, ⟨72, _⟩ => ⟨S_, .i32⟩
  | .hbm, ⟨73, _⟩ => ⟨S8192x8192, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S_, .i1⟩
  | .hbm, ⟨78, _⟩ => ⟨S8192x8192, .i1⟩
  | .hbm, ⟨79, _⟩ => ⟨S8192x8192, .i1⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_cst_11 : Ref sig .tc := ⟨.hbm, 50, rfl⟩
abbrev main_call0_v0 : Ref sig .tc := ⟨.hbm, 51, rfl⟩
abbrev main_call0_v1 : Ref sig .tc := ⟨.hbm, 52, rfl⟩
abbrev main_v36 : Ref sig .tc := ⟨.hbm, 53, rfl⟩
abbrev main_cst_12 : Ref sig .tc := ⟨.hbm, 54, rfl⟩
abbrev main_call1_v0 : Ref sig .tc := ⟨.hbm, 55, rfl⟩
abbrev main_v37 : Ref sig .tc := ⟨.hbm, 56, rfl⟩
abbrev main_cst_13 : Ref sig .tc := ⟨.hbm, 57, rfl⟩
abbrev main_call2_v0 : Ref sig .tc := ⟨.hbm, 58, rfl⟩
abbrev main_v38 : Ref sig .tc := ⟨.hbm, 59, rfl⟩
abbrev main_cst_14 : Ref sig .tc := ⟨.hbm, 60, rfl⟩
abbrev main_call3_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_15 : Ref sig .tc := ⟨.hbm, 66, rfl⟩
abbrev main_v43 : Ref sig .tc := ⟨.hbm, 67, rfl⟩
abbrev main_v44 : Ref sig .tc := ⟨.hbm, 68, rfl⟩
abbrev main_c : Ref sig .tc := ⟨.hbm, 69, rfl⟩
abbrev main_v45 : Ref sig .tc := ⟨.hbm, 70, rfl⟩
abbrev main_call4_v0 : Ref sig .tc := ⟨.hbm, 71, rfl⟩
abbrev main_call4_c : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_0 : Ref sig .tc := ⟨.hbm, 77, rfl⟩
abbrev main_call4_v5 : Ref sig .tc := ⟨.hbm, 78, rfl⟩
abbrev main_v46 : Ref sig .tc := ⟨.hbm, 79, rfl⟩
abbrev main_cst_16 : Ref sig .tc := ⟨.hbm, 80, rfl⟩
abbrev main_call5_v0 : Ref sig .tc := ⟨.hbm, 81, rfl⟩
abbrev main_call5_v1 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_cst_18 : Ref sig .tc := ⟨.hbm, 86, rfl⟩
abbrev main_v49 : Ref sig .tc := ⟨.hbm, 87, rfl⟩
abbrev main_cst_19 : Ref sig .tc := ⟨.hbm, 88, rfl⟩
abbrev main_v50 : Ref sig .tc := ⟨.hbm, 89, rfl⟩
abbrev main_v51 : Ref sig .tc := ⟨.hbm, 90, rfl⟩
abbrev main_cst_20 : Ref sig .tc := ⟨.hbm, 91, rfl⟩
abbrev main_v52 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  reducesTo_S8192x1_S_d0_1 : S8192x1.ReducesTo [0, 1] S_
  h_S_ : 0 < S_.numel
  shapeCasts_S8192x1_S8192 : S8192x1.ShapeCasts S8192
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«162285_j45062796869702_2_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.PairLoss.lean ====
/-
  The pairwise ranking loss as a function of two real differences, in the two spellings the programs use, and the
  identities that join them.

  For a pair (r, c) write dt = t r - t c and dp = p r - p c.
  * The kernel's spelling: dt > 0 gives max 0 (0 - dp); dt < 0 gives max 0 dp; dt = 0 gives |dp| = max dp (-dp).
  * The reference's spelling: a target in {1, -1, 0} chosen by the signs of dt and then dp, and the loss
    max 0 (-(target) * dp).
  The two agree case by case. The loss is symmetric under swapping the pair (both differences change sign) and
  vanishes on the diagonal, so the sum over the full square is twice the sum over the strict upper triangle.
-/
import Idealize.ShloMosaic.PureOps.Ideal
import Idealize.ShloMosaic.PureOps.Ideal.Laws

noncomputable section

namespace Cert.PairLoss

open Idealize.ShloMosaic

/-! ## Over the reals -/

/-- The kernel's spelling of the pair loss. -/
def lossK (dt dp : ℝ) : ℝ :=
  if 0 < dt then max 0 (0 - dp) else if dt < 0 then max 0 dp else max dp (-dp)

/-- The reference's target: the sign of dt, and on ties the opposite of the sign of dp. -/
def target (dt dp : ℝ) : ℝ :=
  if 0 < dt then 1 else if dt < 0 then -1 else if 0 < dp then -1 else if dp < 0 then 1 else 0

/-- The reference's spelling of the pair loss. -/
def lossR (dt dp : ℝ) : ℝ := max 0 (-(target dt dp) * dp)

/-- The two spellings are one function: five sign cases. -/
theorem lossR_eq_lossK (dt dp : ℝ) : lossR dt dp = lossK dt dp := by
  unfold lossR target lossK
  have e1 : -(1 : ℝ) * dp = 0 - dp := by ring
  have e2 : -(-1 : ℝ) * dp = dp := by ring
  have e3 : -(0 : ℝ) * dp = 0 := by ring
  split_ifs with h1 h2 h3 h4
  · rw [e1]
  · rw [e2]
  · rw [e2, max_eq_right h3.le, max_eq_left (by linarith)]
  · rw [e1, max_eq_right (by linarith), max_eq_right (by linarith)]; ring
  · have hdp : dp = 0 := le_antisymm (not_lt.mp h3) (not_lt.mp h4)
    rw [e3, hdp]; simp

/-- Swapping the pair changes the sign of both differences and keeps the loss. -/
theorem lossK_neg (dt dp : ℝ) : lossK (-dt) (-dp) = lossK dt dp := by
  unfold lossK
  rcases lt_trichotomy dt 0 with h | h | h
  · rw [if_pos (by linarith), if_neg (by linarith), if_pos h]; simp
  · subst h; simp [max_comm]
  · rw [if_neg (by linarith), if_pos (by linarith), if_pos h]; simp

/-- On the diagonal both differences vanish and so does the loss. -/
theorem lossK_zero : lossK 0 0 = 0 := by simp [lossK]

/-- A symmetric square array with a zero diagonal sums to twice its strict upper triangle. -/
theorem sum_symm_eq_two_upper {n : ℕ} (f : Fin n → Fin n → ℝ) (hs : ∀ r c, f c r = f r c) (hd : ∀ r, f r r = 0) :
    ∑ r, ∑ c, f r c = 2 * ∑ r, ∑ c, (if r < c then f r c else 0) := by
  have hp : ∀ r c, f r c = (if r < c then f r c else 0) + (if c < r then f c r else 0) := by
    intro r c
    rcases lt_trichotomy r c with h | h | h
    · rw [if_pos h, if_neg (not_lt.mpr h.le), add_zero]
    · subst h; simp [hd]
    · rw [if_neg (not_lt.mpr h.le), if_pos h, hs r c, zero_add]
  calc ∑ r, ∑ c, f r c
      = ∑ r, ∑ c, ((if r < c then f r c else 0) + (if c < r then f c r else 0)) :=
        Finset.sum_congr rfl fun r _ => Finset.sum_congr rfl fun c _ => hp r c
    _ = ∑ r, ∑ c, (if r < c then f r c else 0) + ∑ r, ∑ c, (if c < r then f c r else 0) := by
        simp only [Finset.sum_add_distrib]
    _ = ∑ r, ∑ c, (if r < c then f r c else 0) + ∑ r, ∑ c, (if r < c then f r c else 0) := by
        congr 1; exact Finset.sum_comm
    _ = 2 * ∑ r, ∑ c, (if r < c then f r c else 0) := by ring

/-- Half the kernel's loss over every ordered pair is the reference's loss over the pairs r < c. -/
theorem half_full_eq_upper {n : ℕ} (t p : Fin n → ℝ) :
    (1 / 2 : ℝ) * ∑ r, ∑ c, lossK (t r - t c) (p r - p c)
      = ∑ r, ∑ c, (if r < c then lossR (t r - t c) (p r - p c) else 0) := by
  rw [sum_symm_eq_two_upper (fun r c => lossK (t r - t c) (p r - p c))
    (fun r c => by rw [← lossK_neg (t r - t c), neg_sub, neg_sub]) (fun r => by rw [sub_self, sub_self, lossK_zero])]
  simp only [lossR_eq_lossK]
  ring

end Cert.PairLoss

end
-- ==== Proof.PairLossIdeal.lean ====
/-
  The pair loss as the idealized programs compute it: extended reals, the comparison as the linear order's, a select on
  the comparison's bit, the float literals 1, -1 and 1/2 as the reals they denote. On real arguments each spelling is the
  real function of Proof/PairLoss.lean, and a finite sum of reals is the real sum.
-/
import proofs.«162285_j45062796869702_2_alg».proof.Proof.PairLoss

noncomputable section

namespace Cert.PairLoss

open Idealize.ShloMosaic

/-! ## The literals -/

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! ## A select on a comparison is an if on the order -/

theorem select_ogt {α : Type} (x y : EReal) (a b : α) :
    Scalar.select (Ideal.cmp .ogt x y) a b = if y < x then a else b := by
  unfold Scalar.select Ideal.cmp
  by_cases h : y < x <;> simp [h]

theorem select_olt {α : Type} (x y : EReal) (a b : α) :
    Scalar.select (Ideal.cmp .olt x y) a b = if x < y then a else b := by
  unfold Scalar.select Ideal.cmp
  by_cases h : x < y <;> simp [h]

/-! ## The two spellings over the extended reals -/

/-- The kernel's spelling. -/
def lossKE (dt dp : EReal) : EReal :=
  Scalar.select (Ideal.cmp .ogt dt 0) (max 0 (0 - dp))
    (Scalar.select (Ideal.cmp .olt dt 0) (max 0 dp) (max dp (-dp)))

/-- The reference's target. -/
def targetE (dt dp : EReal) : EReal :=
  Scalar.select (Ideal.cmp .ogt dt 0) ((1 : ℝ) : EReal)
    (Scalar.select (Ideal.cmp .olt dt 0) ((-1 : ℝ) : EReal)
      (Scalar.select (Ideal.cmp .ogt dp 0) ((-1 : ℝ) : EReal)
        (Scalar.select (Ideal.cmp .olt dp 0) ((1 : ℝ) : EReal) 0)))

/-- The reference's spelling. -/
def lossRE (dt dp : EReal) : EReal := max 0 (-(targetE dt dp) * dp)

theorem coe_max (x y : ℝ) : ((max x y : ℝ) : EReal) = max (x : EReal) (y : EReal) :=
  EReal.coe_strictMono.monotone.map_max

theorem lossKE_coe (a b : ℝ) : lossKE (a : EReal) (b : EReal) = ((lossK a b : ℝ) : EReal) := by
  unfold lossKE lossK
  rw [select_ogt, select_olt]
  simp only [← EReal.coe_zero, EReal.coe_lt_coe_iff, ← EReal.coe_sub, ← EReal.coe_neg, ← coe_max]
  split_ifs <;> rfl

theorem targetE_coe (a b : ℝ) : targetE (a : EReal) (b : EReal) = ((target a b : ℝ) : EReal) := by
  unfold targetE target
  rw [select_ogt, select_olt, select_ogt, select_olt]
  simp only [← EReal.coe_zero, EReal.coe_lt_coe_iff]
  split_ifs <;> rfl

theorem lossRE_coe (a b : ℝ) : lossRE (a : EReal) (b : EReal) = ((lossR a b : ℝ) : EReal) := by
  unfold lossRE lossR
  rw [targetE_coe, ← EReal.coe_neg, ← EReal.coe_mul, ← EReal.coe_zero, ← coe_max]

/-! ## Finite sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.PairLoss

end
-- ==== Proof.TilePay.lean ====
/-
  One grid point's arithmetic. The body reads a block of 512 rows (t and p as columns) and a block of 512 columns (t and p
  as rows), forms the 512 × 512 differences dt = t_r - t_c and dp = p_r - p_c, takes the pair loss of each, sums along the
  lanes and then along the rows, and adds the total to the running scalar. Read at the scalar's one index this is the old
  value plus the double sum of the pair loss over the tile.
-/
import proofs.«162285_j45062796869702_2_alg».proof.Proof.Gen.KernelIdeal.Skeleton
import proofs.«162285_j45062796869702_2_alg».proof.Proof.LibKeepdims
import proofs.«162285_j45062796869702_2_alg».proof.Proof.LibLayout
import proofs.«162285_j45062796869702_2_alg».proof.Proof.PairLossIdeal

noncomputable section

namespace Cert.KernelIdeal.TileValue

open Idealize.ShloMosaic Idealize.ShloMosaic.ValueIdx
open Cert.KernelIdeal Cert.KernelIdeal.Gen
open Cert.PairLoss Cert.LibKeepdims Cert.LibLayout

/-- The pair loss summed over one tile: rows from the column blocks, columns from the row blocks. -/
def tileSum (x0 x1 : Vec Ideal S512x1 .f32) (x2 x3 : Vec Ideal S1x512 .f32) : EReal :=
  ∑ r : Fin 512, ∑ c : Fin 512,
    lossKE (x0 (ix2 r (0 : Fin 1)) - x2 (ix2 (0 : Fin 1) c)) (x1 (ix2 r (0 : Fin 1)) - x3 (ix2 (0 : Fin 1) c))

/-- The accumulate step at the scalar's index: the old value plus the tile's sum. -/
theorem pay4_apply (x0 x1 : Vec Ideal S512x1 .f32) (x2 x3 : Vec Ideal S1x512 .f32) (acc : Vec Ideal S1x1 .f32) :
    k0_pay4 (F := Ideal) x0 x1 x2 x3 acc (ix2 (0 : Fin 1) (0 : Fin 1))
      = acc (ix2 (0 : Fin 1) (0 : Fin 1)) + tileSum x0 x1 x2 x3 := by
  unfold k0_pay4 tileSum
  show acc (ix2 (0 : Fin 1) (0 : Fin 1)) + shapeCast S1x1 _ Facts₀.shapeCasts_S1_S1x1 (ix2 (0 : Fin 1) (0 : Fin 1)) = _
  congr 1
  refine (shapeCast_col_apply _ Facts₀.shapeCasts_S1_S1x1 (0 : Fin 1)).trans ?_
  refine (sum_rows_apply _ Facts₀.reduces_S512x1_S1 _ _).trans ?_
  refine Finset.sum_congr rfl fun r _ => ?_
  refine (shapeCast_col_apply _ Facts₀.shapeCasts_S512_S512x1 r).trans ?_
  refine (sum_lanes_apply _ Facts₀.reduces_S512x512_S512 _ _ r).trans ?_
  refine Finset.sum_congr rfl fun c _ => ?_
  have hA : broadcastTo S512x512 x0 Facts₀.broadcasts_S512x1_S512x512 (ix2 r c) = x0 (ix2 r (0 : Fin 1)) :=
    broadcastTo_col_apply x0 _ r c
  have hC : broadcastTo S512x512 x1 Facts₀.broadcasts_S512x1_S512x512 (ix2 r c) = x1 (ix2 r (0 : Fin 1)) :=
    broadcastTo_col_apply x1 _ r c
  have hB : broadcastTo S512x512 (shapeCast S1x512 x2 Facts₀.shapeCasts_S1x512_S1x512) Facts₀.broadcasts_S1x512_S512x512 (ix2 r c)
      = x2 (ix2 (0 : Fin 1) c) := by
    rw [shapeCast_self]; exact broadcastTo_1b_ab_apply x2 _ r c
  have hD : broadcastTo S512x512 (shapeCast S1x512 x3 Facts₀.shapeCasts_S1x512_S1x512) Facts₀.broadcasts_S1x512_S512x512 (ix2 r c)
      = x3 (ix2 (0 : Fin 1) c) := by
    rw [shapeCast_self]; exact broadcastTo_1b_ab_apply x3 _ r c
  have hz : Ideal.ofBits .f32 0x00000000#32 = 0 := Ideal.ofBits_zero_f32
  rw [← hA, ← hB, ← hC, ← hD]
  unfold lossKE
  rw [← hz]
  rfl

end Cert.KernelIdeal.TileValue

end
-- ==== Proof.ScratchValue.lean ====
/-
  What the running scalar and the output block hold after each grid point.

  The grid is 16 × 16: point n is row tile i = n / 16 against column tile j = n % 16. At j = 0 the body first stores zero in
  the running scalar; at every point it adds the tile's sum to it; at j = 15 it also stores the scalar, broadcast, into the
  output block. So after point 16 i + j the scalar is the sum of the tile sums (i, 0) … (i, j), and the block written at
  16 i + 15 holds, at every position, the sum over the whole row of tiles i.
-/
import proofs.«162285_j45062796869702_2_alg».proof.Proof.Gen.KernelIdeal.Frame
import proofs.«162285_j45062796869702_2_alg».proof.Proof.TilePay
import Idealize.ShloMosaic.Lib.Pipeline.Value
import Idealize.ShloMosaic.Lib.Tactic

noncomputable section

namespace Cert.KernelIdeal.ScratchValue

open Idealize.ShloMosaic Idealize.ShloMosaic.TcCoe Idealize.ShloMosaic.ValueIdx Idealize.SL.Sem
open Cert.KernelIdeal Cert.KernelIdeal.Gen Cert.KernelIdeal.TileValue Cert.LibKeepdims

theorem hz : (![0, 0] : Fin 2 → Nat) = fun _ => 0 := funext fun a => by fin_cases a <;> rfl

/-! ## The three cases' stores, as terms of the loads (any instance) -/

section Pieces
variable {F : FTy → Type} [FloatOps F]

/-- At j = 0: zero is stored first, read back, and the tile's sum added to it. -/
theorem scratch_A (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S512x1 .f32) (x1 : Vec F S512x1 .f32) (x2 : Vec F S1x512 .f32) (x3 : Vec F S1x512 .f32) :
    sout0_A_0 c i arg2 harg2 arg3 harg3 arg4 harg4 arg5 harg5 arg6 harg6 arg7 harg7 hc0 hc1 x0 x1 x2 x3 = k0_pay1 (k0_pay4 x0 x1 x2 x3 k0_pay3) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, View.ld_unit_zero (S := S512x1) hz, View.ld_unit_zero (S := S1x512) hz, View.ld_unit_zero (S := S1x1) hz]

/-- At 0 < j < 15: the tile's sum is added to what the point before left. -/
theorem scratch_B (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S512x1 .f32) (x1 : Vec F S512x1 .f32) (x2 : Vec F S1x512 .f32) (x3 : Vec F S1x512 .f32) (xs0 : Vec F S1x1 .f32) :
    sout0_B_0 c i arg2 harg2 arg3 harg3 arg4 harg4 arg5 harg5 arg6 harg6 arg7 harg7 hc0 hc1 x0 x1 x2 x3 xs0 = k0_pay1 (k0_pay4 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x1) hz, View.ld_unit_zero (S := S1x512) hz, View.ld_unit_zero (S := S1x1) hz]

/-- At j = 15: the same for the running scalar, -/
theorem scratch_C (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S512x1 .f32) (x1 : Vec F S512x1 .f32) (x2 : Vec F S1x512 .f32) (x3 : Vec F S1x512 .f32) (xs0 : Vec F S1x1 .f32) :
    sout0_C_0 c i arg2 harg2 arg3 harg3 arg4 harg4 arg5 harg5 arg6 harg6 arg7 harg7 hc0 hc1 x0 x1 x2 x3 xs0 = k0_pay1 (k0_pay4 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S512x1) hz, View.ld_unit_zero (S := S1x512) hz, View.ld_unit_zero (S := S1x1) hz]

/-- and the output block is the new scalar read back and broadcast. -/
theorem block_C (c : Dev nD) (i : grid0.Coords) (arg2 : Memref sig .tc .vmem S512x1 .f32) (harg2 : arg2.IsWhole) (arg3 : Memref sig .tc .vmem S512x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S512x1 .f32) (x1 : Vec F S512x1 .f32) (x2 : Vec F S1x512 .f32) (x3 : Vec F S1x512 .f32) (xs0 : Vec F S1x1 .f32) :
    out0_C_4 c i arg2 harg2 arg3 harg3 arg4 harg4 arg5 harg5 arg6 harg6 arg7 harg7 hc0 hc1 x0 x1 x2 x3 xs0 = k0_pay2 (k0_pay1 (k0_pay4 x0 x1 x2 x3 xs0)) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg5.read_unread, harg7.read_unread, View.ld_unit_zero (S := S512x1) hz, View.ld_unit_zero (S := S1x512) hz, View.ld_unit_zero (S := S1x1) hz]

end Pieces

end Cert.KernelIdeal.ScratchValue

end
-- ==== Proof.RunningSum.lean ====
/-
  The running scalar as a sum of tile sums, by induction on the grid point.

  Write T n for the pair-loss sum of the tile that grid point n reads. Point 16 i starts the scalar at 0 + T (16 i); each
  later point of the row adds its own T; so after point 16 i + j the scalar is T (16 i) + … + T (16 i + j). The block stored
  at point 16 i + 15 is that scalar, after all sixteen tiles of the row, at every one of its 8 × 128 positions.
-/
import proofs.«162285_j45062796869702_2_alg».proof.Proof.ScratchValue

noncomputable section

namespace Cert.KernelIdeal.RunningSum

open Idealize.ShloMosaic Idealize.ShloMosaic.TcCoe Idealize.ShloMosaic.ValueIdx Idealize.SL.Sem
open Cert.KernelIdeal Cert.KernelIdeal.Gen Cert.KernelIdeal.TileValue Cert.KernelIdeal.ScratchValue Cert.LibKeepdims

variable (m : (ℓ : Loc nD τ sig) → Buf (Elt Ideal) ℓ)

/-! ## The small payloads at an index -/

/-- The scalar is stored as it is. -/
theorem pay1_eq (v : FVec Ideal S1x1 .f32) : k0_pay1 (F := Ideal) v = v := by
  unfold k0_pay1; exact shapeCast_self v _

/-- The stored zero is the real zero. -/
theorem pay3_apply (j : S1x1.Idx) : k0_pay3 (F := Ideal) j = 0 := by
  unfold k0_pay3
  rw [shapeCast_self]
  exact Ideal.ofBits_zero_f32

/-- The block is the scalar at every position. -/
theorem pay2_apply (v : Vec Ideal S1x1 .f32) (y : S8x128.Idx) :
    k0_pay2 (F := Ideal) v y = v (ix2 (0 : Fin 1) (0 : Fin 1)) := by
  unfold k0_pay2
  refine (broadcastTo_unit_apply _ Facts₀.broadcasts_S1x1_S8x128 y).trans ?_
  rw [shapeCast_self]

/-! ## The tile sum a point adds, and the running sum -/

/-- The pair-loss sum of the tile grid point `t` reads. -/
def tileAt (c : Dev nD) (t : Fin cfg0.N) : EReal :=
  tileSum (iblk m c 0 t) (iblk m c 1 t) (iblk m c 2 t) (iblk m c 3 t)

/-- The same by the point's number (zero past the grid). -/
def tileN (c : Dev nD) (n : ℕ) : EReal := if h : n < cfg0.N then tileAt m c ⟨n, h⟩ else 0

/-- After point 16 i + j the running scalar is the sum of the tile sums of points 16 i, …, 16 i + j. -/
theorem scratch_eq (c : Dev nD) (i : ℕ) : ∀ (j : ℕ) (h : 16 * i + j < cfg0.N), j < 16 →
    (outsAt0 m c (16 * i + j) h).2 (ix2 (0 : Fin 1) (0 : Fin 1)) = ∑ k ∈ Finset.range (j + 1), tileN m c (16 * i + k)
  | 0, h, _ => by
    have h0 : (⟨16 * i + 0, h⟩ : Fin cfg0.N).val % 16 = 0 := by dsimp only; omega
    have h1 : ¬(⟨16 * i + 0, h⟩ : Fin cfg0.N).val % 16 = 15 := by dsimp only; omega
    rw [outsAt0_A m c ⟨16 * i + 0, h⟩ h0 h1]
    dsimp only
    rw [scratch_A, pay1_eq, pay4_apply, pay3_apply, zero_add, Finset.sum_range_one]
    unfold tileN
    rw [dif_pos h]
    rfl
  | j + 1, h, hj => by
    have h0 : ¬(⟨16 * i + (j + 1), h⟩ : Fin cfg0.N).val % 16 = 0 := by dsimp only; omega
    have ih := scratch_eq c i j (by omega) (by omega)
    have ht : tileSum (iblk m c 0 ⟨16 * i + (j + 1), h⟩) (iblk m c 1 ⟨16 * i + (j + 1), h⟩)
        (iblk m c 2 ⟨16 * i + (j + 1), h⟩) (iblk m c 3 ⟨16 * i + (j + 1), h⟩) = tileN m c (16 * i + (j + 1)) := by
      unfold tileN; rw [dif_pos h]; rfl
    by_cases h1 : (⟨16 * i + (j + 1), h⟩ : Fin cfg0.N).val % 16 = 15
    · rw [outsAt0_C m c ⟨16 * i + (j + 1), h⟩ h0 h1]
      dsimp only
      rw [scratch_C, pay1_eq, pay4_apply, Finset.sum_range_succ, ← ih, ht]
      rfl
    · rw [outsAt0_B m c ⟨16 * i + (j + 1), h⟩ h0 h1]
      dsimp only
      rw [scratch_B, pay1_eq, pay4_apply, Finset.sum_range_succ, ← ih, ht]
      rfl

/-- The block stored at point 16 i + 15 holds the whole row's sum at every position. -/
theorem block_eq (c : Dev nD) (i : ℕ) (h : 16 * i + 15 < cfg0.N) (y : S8x128.Idx) :
    (outsAt0 m c (16 * i + 15) h).1 y = ∑ k ∈ Finset.range 16, tileN m c (16 * i + k) := by
  have h0 : ¬(⟨16 * i + 15, h⟩ : Fin cfg0.N).val % 16 = 0 := by dsimp only; omega
  have h1 : (⟨16 * i + 15, h⟩ : Fin cfg0.N).val % 16 = 15 := by dsimp only; omega
  have hs := scratch_eq m c i 15 h (by omega)
  rw [outsAt0_C m c ⟨16 * i + 15, h⟩ h0 h1] at hs ⊢
  dsimp only at hs ⊢
  rw [scratch_C, pay1_eq] at hs
  rw [block_C, pay2_apply, pay1_eq]
  exact hs

end Cert.KernelIdeal.RunningSum

end
-- ==== Proof.ArrayValue.lean ====
/-
  The kernel's result array after the run.

  The result is 128 × 128: sixteen blocks of 8 rows, block i written back once, after the last column tile of row tile i
  (grid point 16 i + 15). That block holds the row's total at every position, so the array after the run holds, at (x, y),
  the total of row tile x / 8: the sum of the sixteen tile sums of grid points 16 (x / 8) … 16 (x / 8) + 15.
-/
import proofs.«162285_j45062796869702_2_alg».proof.Proof.RunningSum
import proofs.«162285_j45062796869702_2_alg».proof.Proof.Gen.KernelIdeal.Points

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RunningSum

variable (m : (ℓ : Loc nD τ sig) → Buf (Elt Ideal) ℓ)

/-- The total of row tile i: its sixteen tile sums. -/
def rowTotal (c : Dev nD) (i : ℕ) : EReal := ∑ k ∈ Finset.range 16, tileN m c (16 * i + k)

/-- The result array: at (x, y) the total of row tile x / 8. -/
def resultArr (c : Dev nD) : S128x128.Idx → EReal := fun idx => rowTotal m c ((idx 0).val / 8)

/-- The output window's block index at a point: (t / 16, 0) — decided over the grid. -/
theorem index4 : ∀ t : Fin cfg0.N, win0_4.index t (0 : Fin 2) = t.val / 16 ∧ win0_4.index t (1 : Fin 2) = 0 :=
  (by decide +kernel : ∀ t : Fin grid0.N, _)

theorem outsAt0_congr (c : Dev nD) {n n' : ℕ} (e : n = n') (h : n < cfg0.N) (h' : n' < cfg0.N) :
    outsAt0 m c n h = outsAt0 m c n' h' := by subst e; rfl

/-- The block a last-column point leaves: its row's total everywhere. -/
theorem block_at (c : Dev nD) (n : ℕ) (h : n < cfg0.N) (h15 : n % 16 = 15) (y : S8x128.Idx) :
    (outsAt0 m c n h).1 y = rowTotal m c (n / 16) := by
  have e : n = 16 * (n / 16) + 15 := by omega
  rw [outsAt0_congr m c e h (by omega)]
  exact block_eq m c (n / 16) _ y

/-- What a point that writes back writes: its block of the result array. -/
theorem flushed_eq (c : Dev nD) (t : Fin cfg0.N) (hf : (cfg0.win 4).flush t = true) :
    (dats m 0 c).flushed 4 t = ((cfg0.win 4).blk t).view.read (Elt Ideal) (resultArr m c) := by
  have h15 : t.val % 16 = 15 := (flush0_4 t).mp hf
  obtain ⟨i0, i1⟩ := index4 t
  show (cfg0.win 4).cut (grid0.coords t) ((dats m 0 c).after 4 t) = _
  rw [after0_4]
  funext y
  show (outsAt0 m c t.val t.isLt).1 y = rowTotal m c ((((cfg0.win 4).blk t).view.emb y 0).val / 8)
  rw [block_at m c t.val t.isLt h15 y]
  have e0 : (((cfg0.win 4).blk t).view.emb y 0).val = win0_4.index t (0 : Fin 2) * 8 + 1 * (y 0).val := rfl
  have hy : (y 0).val < 8 := (y 0).isLt
  rw [e0, i0]
  congr 1
  omega

/-- An index of the array is in point t's block iff each coordinate is in the block's range on its axis. -/
theorem mem_blk (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v20).slice (win0_4.rect t)).set ↔ _
  rw [View.set_slice_whole, Rect.mem_set_unit]
  exact Iff.rfl

/-- Every index is in the block some point writes back: row x is written by point 16 (x / 8) + 15. -/
theorem cover (i : S128x128.Idx) : ∃ t : Fin cfg0.N, (cfg0.win 4).flush t = true ∧ i ∈ ((cfg0.win 4).blk t).view.set := by
  have hN : cfg0.N = 256 := N_0
  have hi0 : (i 0).val < 128 := (i 0).isLt
  have hi1 : (i 1).val < 128 := (i 1).isLt
  refine ⟨⟨16 * ((i 0).val / 8) + 15, by omega⟩, (flush0_4 _).mpr (by dsimp only; omega), ?_⟩
  rw [mem_blk]
  obtain ⟨q0, q1⟩ := index4 ⟨16 * ((i 0).val / 8) + 15, by omega⟩
  intro a
  match a with
  | ⟨0, _⟩ =>
    show win0_4.index _ (0 : Fin 2) * 8 ≤ (i 0).val ∧ (i 0).val < win0_4.index _ (0 : Fin 2) * 8 + 8
    rw [q0]; dsimp only; omega
  | ⟨1, _⟩ =>
    show win0_4.index _ (1 : Fin 2) * 128 ≤ (i 1).val ∧ (i 1).val < win0_4.index _ (1 : Fin 2) * 128 + 128
    rw [q1]; omega

/-- The result array after the run. -/
theorem final (c : Dev nD) : (dats m 0 c).arrAt 4 cfg0.N = resultArr m c :=
  (dats m 0 c).arrAt_eq_of_cover 4 (resultArr m c) (flushed_eq m c) (cover)

end Cert.KernelIdeal.ArrayValue

end
-- ==== Proof.KernelResult.lean ====
/-
  The kernel's whole program read back: the scalar it returns as a term of the two argument arrays.

  Before the region the host computes the mean squared difference and the clamped mean of 1 - cosine from the arguments
  reshaped to vectors, and the two row copies [1, 8192] the region's row windows read. After the region it takes entry
  (8 i, 0) of the result array for each of the sixteen row tiles, sums them from zero, halves the sum, and adds it to
  1 · mse + 1 · simloss.
-/
import proofs.«162285_j45062796869702_2_alg».proof.Proof.ArrayValue
import proofs.«162285_j45062796869702_2_alg».proof.Proof.Gen.ReferenceIdeal.Read
import Idealize.ShloMosaic.Lib.StableHlo.Run
import Idealize.ShloMosaic.Lib.Tactic

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.ArrayValue

variable (m : (ℓ : Loc nD τ sig) → Buf (Elt Ideal) ℓ) (ρ : Dev nD → PrngReg)

/-! ## The host operations before the region -/

/-- The squared differences of the two arguments as vectors. -/
def sqDiff (a0 a1 : S8192x1.Idx → EReal) : S8192.Idx → EReal :=
  mulf (F := Ideal) (φ := .f32)
    (subf (F := Ideal) (φ := .f32) (shapeCast S8192 a0 Facts₀.shapeCasts_S8192x1_S8192) (shapeCast S8192 a1 Facts₀.shapeCasts_S8192x1_S8192))
    (subf (F := Ideal) (φ := .f32) (shapeCast S8192 a0 Facts₀.shapeCasts_S8192x1_S8192) (shapeCast S8192 a1 Facts₀.shapeCasts_S8192x1_S8192))

/-- The mean squared difference as the kernel's host code computes it. -/
def mseK (a0 a1 : S8192x1.Idx → EReal) : S_.Idx → EReal :=
  Host.divf (F := Ideal) (φ := .f32)
    (Host.reduceAdd (F := Ideal) (φ := .f32) (sqDiff a0 a1) (constant (F := Ideal) S_ .f32 0x00000000#32) Facts₀.reducesTo_S8192_S_d0 Facts₀.h_S_)
    (constant (F := Ideal) S_ .f32 0x46000000#32)

theorem V_mse (c : Dev nD) : (V m c main_v5 : S_.Idx → EReal)
    = mseK (m ((c : Thread nD τ).loc main_arg0)) (m ((c : Thread nD τ).loc main_arg1)) := by
  show StableHlo.after hostOps0 (fun b => m (c, b)) (Proc.devRef .tc main_v5) = _
  after_results
  rfl

/-- The clamped mean of 1 - cosine: the kernel's host code spells it exactly as the reference does. -/
theorem V_sim (c : Dev nD) : (V m c main_v17 : S_.Idx → EReal)
    = Cert.ReferenceIdeal.Read.val_main_v17 (F := Ideal) (m ((c : Thread nD τ).loc main_arg0)) (m ((c : Thread nD τ).loc main_arg1)) := by
  show StableHlo.after hostOps0 (fun b => m (c, b)) (Proc.devRef .tc main_v17) = _
  after_results
  rfl

/-- The row copy of argument 0 the region's third window reads. -/
theorem V_row0 (c : Dev nD) : (V m c main_v18 : S1x8192.Idx → EReal)
    = shapeCast S1x8192 (m ((c : Thread nD τ).loc main_arg0)) Facts₀.shapeCasts_S8192x1_S1x8192 := by
  show StableHlo.after hostOps0 (fun b => m (c, b)) (Proc.devRef .tc main_v18) = _
  after_results
  rfl

/-- The row copy of argument 1 the region's fourth window reads. -/
theorem V_row1 (c : Dev nD) : (V m c main_v19 : S1x8192.Idx → EReal)
    = shapeCast S1x8192 (m ((c : Thread nD τ).loc main_arg1)) Facts₀.shapeCasts_S8192x1_S1x8192 := by
  show StableHlo.after hostOps0 (fun b => m (c, b)) (Proc.devRef .tc main_v19) = _
  after_results
  rfl

/-! ## The host operations after the region -/

/-- The sixteen row-tile totals picked out of the result array: reshape to [16, 8, 128], take [:, 0, 0], flatten. -/
def perTile (r20 : S128x128.Idx → EReal) : S16.Idx → EReal :=
  shapeCast S16 (extractStridedSlice S16x1x1 ![0, 0, 0] (shapeCast S16x8x128 r20 Facts₀.shapeCasts_S128x128_S16x8x128)
    Facts₀.slices_S16x8x128_S16x1x1_0_0_0) Facts₀.shapeCasts_S16x1x1_S16

/-- The returned scalar from the result array and the two host terms. -/
def tailTerm (r20 : S128x128.Idx → EReal) (v5 v17 : S_.Idx → EReal) : S_.Idx → EReal :=
  addf (F := Ideal) (φ := .f32)
    (addf (F := Ideal) (φ := .f32) (mulf (F := Ideal) (φ := .f32) (constant (F := Ideal) S_ .f32 0x3F800000#32) v5)
      (mulf (F := Ideal) (φ := .f32) (constant (F := Ideal) S_ .f32 0x3F800000#32) v17))
    (mulf (F := Ideal) (φ := .f32) (constant (F := Ideal) S_ .f32 0x3F000000#32)
      (Host.reduceAdd (F := Ideal) (φ := .f32) (perTile r20) (constant (F := Ideal) S_ .f32 0x00000000#32) Facts₀.reducesTo_S16_S_d0 Facts₀.h_S_))

theorem mem_rest : main_v29 ∈ Pipeline.restRefs sig (cfgs 0).spec := by decide

/-- The lines after the region, run over the result array as the region left it. -/
theorem tail_eq (c : Dev nD) :
    Pipeline.afterTail₀ cfgs (dats m) 0 (V0 m) [hostOps1] c main_v29
      = tailTerm (resultArr m c) (V m c main_v5) (V m c main_v17) := by
  have e20 : Pipeline.withArrays (cfgs 0).spec c (V0 m c) (fun w => (dats m 0 c).arrAt w (cfgs 0).N) (Proc.devRef .tc main_v20)
      = resultArr m c := (Pipeline.withArrays_arr spec0 launch0.win.arr_inj c _ _ 4).trans (final m c)
  have e5 : Pipeline.withArrays (cfgs 0).spec c (V0 m c) (fun w => (dats m 0 c).arrAt w (cfgs 0).N) (Proc.devRef .tc main_v5)
      = V m c main_v5 := Pipeline.withArrays_of_ne spec0 c _ _ main_v5 (fun w => by fin_cases w <;> decide)
  have e17 : Pipeline.withArrays (cfgs 0).spec c (V0 m c) (fun w => (dats m 0 c).arrAt w (cfgs 0).N) (Proc.devRef .tc main_v17)
      = V m c main_v17 := Pipeline.withArrays_of_ne spec0 c _ _ main_v17 (fun w => by fin_cases w <;> decide)
  unfold Pipeline.afterTail₀
  show StableHlo.after hostOps1 _ (Proc.devRef .tc main_v29) = _
  after_results
  rw [e20, e5, e17]
  rfl

/-! ## The run, read -/

/-- Every weakly fair execution of the kernel's program ends with the result at that term and the arguments unchanged. -/
theorem run : θ_run defs (onTc (τ := τ) (main (F := Ideal))) ⟨m, fun _ => 0, ρ⟩ fun r => ∀ c : Dev nD,
      r.2.mem ((c.tc : Thread nD τ).loc main_v29) = tailTerm (resultArr m c) (V m c main_v5) (V m c main_v17)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v29 mem_rest).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Result

end
-- ==== Proof.Blocks.lean ====
/-
  The tiles in terms of the argument arrays.

  Grid point n = 16 i + j reads rows 512 i … 512 i + 511 of the two argument columns (windows 0 and 1) and entries
  512 j … 512 j + 511 of their row copies (windows 2 and 3), which are the same argument entries. So its tile sum is the
  pair loss over the rows of tile i against the rows of tile j.
-/
import proofs.«162285_j45062796869702_2_alg».proof.Proof.KernelResult

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.TileValue Cert.KernelIdeal.RunningSum
open Cert.KernelIdeal.Result Cert.PairLoss Cert.LibKeepdims

variable (m : (ℓ : Loc nD τ sig) → Buf (Elt Ideal) ℓ)

/-- The input windows' block indices at a point: (t / 16, 0) for the columns, (0, t % 16) for the rows — decided over the
    grid. -/
theorem index_in : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16 :=
  (by decide +kernel : ∀ t : Fin grid0.N, _)

/-- Row r of the first column block at point t is entry 512 (t / 16) + r of argument 0. -/
theorem blk0_apply (c : Dev nD) (t : Fin cfg0.N) (r : Fin 512) (q : Fin 8192) (hq : q.val = 512 * (t.val / 16) + r.val) :
    (iblk m c 0 t : S512x1.Idx → EReal) (ix2 r (0 : Fin 1)) = m ((c : Thread nD τ).loc main_arg0) (ix2 q (0 : Fin 1)) := by
  obtain ⟨e0, e1, -⟩ := index_in t
  unfold iblk
  rw [View.read_apply]
  show V m c main_arg0 _ = _
  rw [V_main_arg0 m c]
  congr 1
  funext a; apply Fin.ext
  match a with
  | ⟨0, _⟩ => show win0_0.index t (0 : Fin 2) * 512 + 1 * r.val = q.val; rw [e0, hq]; omega
  | ⟨1, _⟩ => show win0_0.index t (1 : Fin 2) * 1 + 1 * 0 = 0; rw [e1]

/-- The same for argument 1. -/
theorem blk1_apply (c : Dev nD) (t : Fin cfg0.N) (r : Fin 512) (q : Fin 8192) (hq : q.val = 512 * (t.val / 16) + r.val) :
    (iblk m c 1 t : S512x1.Idx → EReal) (ix2 r (0 : Fin 1)) = m ((c : Thread nD τ).loc main_arg1) (ix2 q (0 : Fin 1)) := by
  obtain ⟨-, -, e0, e1, -⟩ := index_in t
  unfold iblk
  rw [View.read_apply]
  show V m c main_arg1 _ = _
  rw [V_main_arg1 m c]
  congr 1
  funext a; apply Fin.ext
  match a with
  | ⟨0, _⟩ => show win0_1.index t (0 : Fin 2) * 512 + 1 * r.val = q.val; rw [e0, hq]; omega
  | ⟨1, _⟩ => show win0_1.index t (1 : Fin 2) * 1 + 1 * 0 = 0; rw [e1]

/-- Entry k of the first row block at point t is entry 512 (t % 16) + k of argument 0. -/
theorem blk2_apply (c : Dev nD) (t : Fin cfg0.N) (k : Fin 512) (q : Fin 8192) (hq : q.val = 512 * (t.val % 16) + k.val) :
    (iblk m c 2 t : S1x512.Idx → EReal) (ix2 (0 : Fin 1) k) = m ((c : Thread nD τ).loc main_arg0) (ix2 q (0 : Fin 1)) := by
  obtain ⟨-, -, -, -, e0, e1, -⟩ := index_in t
  unfold iblk
  rw [View.read_apply]
  show V m c main_v18 _ = _
  rw [V_row0 m c]
  refine Eq.trans ?_ (shapeCast_col_row_apply (m ((c : Thread nD τ).loc main_arg0)) Facts₀.shapeCasts_S8192x1_S1x8192 q)
  congr 1
  funext a; apply Fin.ext
  match a with
  | ⟨0, _⟩ => show win0_2.index t (0 : Fin 2) * 1 + 1 * 0 = 0; rw [e0]
  | ⟨1, _⟩ => show win0_2.index t (1 : Fin 2) * 512 + 1 * k.val = q.val; rw [e1, hq]; omega

/-- The same for argument 1. -/
theorem blk3_apply (c : Dev nD) (t : Fin cfg0.N) (k : Fin 512) (q : Fin 8192) (hq : q.val = 512 * (t.val % 16) + k.val) :
    (iblk m c 3 t : S1x512.Idx → EReal) (ix2 (0 : Fin 1) k) = m ((c : Thread nD τ).loc main_arg1) (ix2 q (0 : Fin 1)) := by
  obtain ⟨-, -, -, -, -, -, e0, e1⟩ := index_in t
  unfold iblk
  rw [View.read_apply]
  show V m c main_v19 _ = _
  rw [V_row1 m c]
  refine Eq.trans ?_ (shapeCast_col_row_apply (m ((c : Thread nD τ).loc main_arg1)) Facts₀.shapeCasts_S8192x1_S1x8192 q)
  congr 1
  funext a; apply Fin.ext
  match a with
  | ⟨0, _⟩ => show win0_3.index t (0 : Fin 2) * 1 + 1 * 0 = 0; rw [e0]
  | ⟨1, _⟩ => show win0_3.index t (1 : Fin 2) * 512 + 1 * k.val = q.val; rw [e1, hq]; omega

/-- The two argument arrays as the region finds them: columns of 8192 extended reals. -/
abbrev A0 (c : Dev nD) : S8192x1.Idx → EReal := m ((c : Thread nD τ).loc main_arg0)
abbrev A1 (c : Dev nD) : S8192x1.Idx → EReal := m ((c : Thread nD τ).loc main_arg1)

/-- Row r of tile i, as a row of the whole arrays. -/
def rowOf (i : Fin 16) (r : Fin 512) : Fin 8192 := ⟨512 * i.val + r.val, by have := i.isLt; have := r.isLt; omega⟩

/-- The tile sum of point 16 i + j: the pair loss over the rows of tile i against the rows of tile j. -/
theorem tileN_eq (c : Dev nD) (i j : Fin 16) :
    tileN m c (16 * i.val + j.val) = ∑ r : Fin 512, ∑ k : Fin 512,
      lossKE (A0 m c (ix2 (rowOf i r) (0 : Fin 1)) - A0 m c (ix2 (rowOf j k) (0 : Fin 1)))
        (A1 m c (ix2 (rowOf i r) (0 : Fin 1)) - A1 m c (ix2 (rowOf j k) (0 : Fin 1))) := by
  have hN : cfg0.N = 256 := N_0
  have hi := i.isLt
  have hj := j.isLt
  have h : 16 * i.val + j.val < cfg0.N := by omega
  unfold tileN
  rw [dif_pos h]
  unfold tileAt tileSum
  refine Finset.sum_congr rfl fun r _ => Finset.sum_congr rfl fun k _ => ?_
  rw [blk0_apply m c ⟨_, h⟩ r (rowOf i r) (by show 512 * i.val + r.val = 512 * ((16 * i.val + j.val) / 16) + r.val; omega),
    blk1_apply m c ⟨_, h⟩ r (rowOf i r) (by show 512 * i.val + r.val = 512 * ((16 * i.val + j.val) / 16) + r.val; omega),
    blk2_apply m c ⟨_, h⟩ k (rowOf j k) (by show 512 * j.val + k.val = 512 * ((16 * i.val + j.val) % 16) + k.val; omega),
    blk3_apply m c ⟨_, h⟩ k (rowOf j k) (by show 512 * j.val + k.val = 512 * ((16 * i.val + j.val) % 16) + k.val; omega)]

end Cert.KernelIdeal.Blocks

end
-- ==== Proof.RankSum.lean ====
/-
  From tiles to the whole square, and the kernel's rank term as a real number.

  Rows 0 … 8191 are sixteen tiles of 512: row 512 i + r is row r of tile i, a bijection between (tile, row in tile) and
  rows. Summing a function of two rows tile pair by tile pair is therefore summing it over the whole square. With real
  entries every tile sum is a real, so the sixteen row totals add up to the real full-square sum of the kernel's pair loss,
  and half of it is the reference's pair loss summed over the pairs r < c (Proof/PairLoss.lean).
-/
import proofs.«162285_j45062796869702_2_alg».proof.Proof.PairLossIdeal
import Idealize.ShloMosaic.Lib.ValueIdx

noncomputable section

namespace Cert.PairLoss

open Idealize.ShloMosaic Idealize.ShloMosaic.ValueIdx

/-! ## Sums over a vector's indices -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## Sixteen tiles of 512 rows -/

section Tiles
variable (g : Fin 16 → Fin 512 → Fin 8192) (hg : ∀ i r, (g i r).val = 512 * i.val + r.val)
include hg

/-- (tile, row in tile) ↔ row. -/
def tileEquiv : Fin 16 × Fin 512 ≃ Fin 8192 :=
  Equiv.ofBijective (fun x => g x.1 x.2) ⟨fun x y h => by
    have hv := congrArg Fin.val h
    dsimp only at hv
    rw [hg, hg] at hv
    have := x.2.isLt; have := y.2.isLt
    exact Prod.ext (Fin.ext (by omega)) (Fin.ext (by omega)),
  fun R => ⟨(⟨R.val / 512, by have := R.isLt; omega⟩, ⟨R.val % 512, by omega⟩), Fin.ext (by
    dsimp only; rw [hg]; dsimp only; omega)⟩⟩

/-- Summing tile pair by tile pair is summing over the whole square. -/
theorem sum_tiles (F : Fin 8192 → Fin 8192 → ℝ) :
    ∑ i : Fin 16, ∑ j : Fin 16, ∑ r : Fin 512, ∑ k : Fin 512, F (g i r) (g j k) = ∑ R : Fin 8192, ∑ C : Fin 8192, F R C := by
  calc ∑ i : Fin 16, ∑ j : Fin 16, ∑ r : Fin 512, ∑ k : Fin 512, F (g i r) (g j k)
      = ∑ i : Fin 16, ∑ r : Fin 512, ∑ j : Fin 16, ∑ k : Fin 512, F (g i r) (g j k) :=
        Finset.sum_congr rfl fun i _ => Finset.sum_comm
    _ = ∑ x : Fin 16 × Fin 512, ∑ y : Fin 16 × Fin 512, F (tileEquiv g hg x) (tileEquiv g hg y) := by
        simp only [Fintype.sum_prod_type]; rfl
    _ = ∑ x : Fin 16 × Fin 512, ∑ C : Fin 8192, F (tileEquiv g hg x) C :=
        Finset.sum_congr rfl fun x _ => Equiv.sum_comp (tileEquiv g hg) (fun C => F (tileEquiv g hg x) C)
    _ = ∑ R : Fin 8192, ∑ C : Fin 8192, F R C := Equiv.sum_comp (tileEquiv g hg) (fun R => ∑ C, F R C)

/-- THE KERNEL'S RANK TERM. If both arrays hold reals (t and p) and T (16 i + j) is the pair loss of tile i's rows against
    tile j's rows, then half of zero plus the sixteen row totals is the real sum of the reference's pair loss over r < c. -/
theorem kernel_rank (a0 a1 : (⟨2, ![8192, 1]⟩ : Shape).Idx → EReal) (t p : Fin 8192 → ℝ)
    (h0 : ∀ q, a0 (ix2 q (0 : Fin 1)) = (t q : EReal)) (h1 : ∀ q, a1 (ix2 q (0 : Fin 1)) = (p q : EReal))
    (T : ℕ → EReal)
    (hT : ∀ i j : Fin 16, T (16 * i.val + j.val) = ∑ r : Fin 512, ∑ k : Fin 512,
      lossKE (a0 (ix2 (g i r) (0 : Fin 1)) - a0 (ix2 (g j k) (0 : Fin 1))) (a1 (ix2 (g i r) (0 : Fin 1)) - a1 (ix2 (g j k) (0 : Fin 1)))) :
    ((1 / 2 : ℝ) : EReal) * (0 + ∑ i : Fin 16, ∑ j ∈ Finset.range 16, T (16 * i.val + j))
      = ((∑ R : Fin 8192, ∑ C : Fin 8192, (if R < C then lossR (t R - t C) (p R - p C) else 0) : ℝ) : EReal) := by
  have hTr : ∀ i j : Fin 16, T (16 * i.val + j.val)
      = ((∑ r : Fin 512, ∑ k : Fin 512, lossK (t (g i r) - t (g j k)) (p (g i r) - p (g j k)) : ℝ) : EReal) := by
    intro i j
    rw [hT i j, coe_sum]
    refine Finset.sum_congr rfl fun r _ => ?_
    rw [coe_sum]
    refine Finset.sum_congr rfl fun k _ => ?_
    rw [h0, h0, h1, h1, ← EReal.coe_sub, ← EReal.coe_sub, lossKE_coe]
  have hrow : ∀ i : Fin 16, ∑ j ∈ Finset.range 16, T (16 * i.val + j)
      = ((∑ j : Fin 16, ∑ r : Fin 512, ∑ k : Fin 512, lossK (t (g i r) - t (g j k)) (p (g i r) - p (g j k)) : ℝ) : EReal) := by
    intro i
    rw [Finset.sum_range (fun j => T (16 * i.val + j)), coe_sum]
    exact Finset.sum_congr rfl fun j _ => hTr i j
  rw [zero_add, Finset.sum_congr rfl fun i _ => hrow i, ← coe_sum, ← EReal.coe_mul,
    sum_tiles g hg (fun R C => lossK (t R - t C) (p R - p C)), half_full_eq_upper]

end Tiles

end Cert.PairLoss

end
-- ==== Proof.RefValue.lean ====
/-
  The reference's pairwise term read at an index, and its value on real arguments.

  At (R, C) the reference forms dt = t R - t C and dp = p R - p C from the two broadcasts of each argument, chooses the
  target by the signs of dt and then dp, takes max 0 (-(target) * dp), and keeps it where R < C (the strict upper triangle:
  the mask is "not (row index + 0 ≥ column index)" on 32-bit integers, and both indices are below 8192). The sum over all
  (R, C), from zero, times one, is on real arguments the real sum of the loss over the pairs R < C.
-/
import proofs.«162285_j45062796869702_2_alg».proof.Proof.Gen.ReferenceIdeal.Read
import proofs.«162285_j45062796869702_2_alg».proof.Proof.RankSum

noncomputable section

namespace Cert.ReferenceIdeal.RefValue

open Idealize.ShloMosaic Idealize.ShloMosaic.ValueIdx
open Cert.ReferenceIdeal Cert.ReferenceIdeal.Gen Cert.ReferenceIdeal.Read Cert.PairLoss

/-! ## The strict upper triangle -/

/-- A number below 8192 as a 32-bit word reads back as itself, signed. -/
theorem toInt_small (n : ℕ) (h : n < 8192) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- The mask at (R, C) says R < C. -/
theorem mask_apply (R C : Fin 8192) : val_main_v46 (F := Ideal) (ix2 R C) = BitVec.ofBool (decide (R < C)) := by
  simp only [val_main_v46_apply, val_main_v45_apply, val_main_c_apply, val_main_call4_v5_apply, val_main_call4_c_0_apply,
    val_main_call4_v4_apply, val_main_call4_v3_apply, val_main_call4_v2_apply, val_main_call4_v1_apply, val_main_call4_c_apply,
    val_main_call4_v0_apply]
  have hs : (BitVec.ofNat 32 C.val).sle (BitVec.ofNat 32 R.val + 0#32) = decide (C.val ≤ R.val) := by
    rw [BitVec.add_zero]
    unfold BitVec.sle
    rw [toInt_small _ C.isLt, toInt_small _ R.isLt]
    simp
  have hc : IntOp.cmpi .sge (IntOp.addi (BitVec.ofNat 32 (ix2 R C 0).val) 0#32) (BitVec.ofNat 32 (ix2 R C 1).val)
      = BitVec.ofBool (decide (C.val ≤ R.val)) := congrArg BitVec.ofBool hs
  rw [hc]
  by_cases h : R < C
  · have hv : R.val < C.val := h
    have h' : ¬C.val ≤ R.val := by omega
    simp [Scalar.select, h, h']
  · have hv : ¬R.val < C.val := h
    have h' : C.val ≤ R.val := by omega
    simp [Scalar.select, h, h']

/-! ## The two differences -/

theorem dt_apply (x0 : S8192x1.Idx → EReal) (R C : Fin 8192) :
    val_main_v22 (F := Ideal) x0 (ix2 R C) = x0 (ix2 R (0 : Fin 1)) - x0 (ix2 C (0 : Fin 1)) := by
  rw [val_main_v22_apply, val_main_v20_apply, val_main_v18_apply, val_main_v4_apply, val_main_v21_apply, val_main_v19_apply, val_main_v4_apply]
  have e1 : idx_main_v4 (idx_main_v18 (idx_main_v20 (ix2 R C))) = ix2 R (0 : Fin 1) :=
    funext fun a => Fin.ext (by match a with | ⟨0, _⟩ => exact Nat.div_one _ | ⟨1, _⟩ => rfl)
  have e2 : idx_main_v4 (idx_main_v19 (idx_main_v21 (ix2 R C))) = ix2 C (0 : Fin 1) :=
    funext fun a => Fin.ext (by match a with | ⟨0, _⟩ => exact Nat.div_one _ | ⟨1, _⟩ => rfl)
  rw [e1, e2]
  rfl

theorem dp_apply (x1 : S8192x1.Idx → EReal) (R C : Fin 8192) :
    val_main_v27 (F := Ideal) x1 (ix2 R C) = x1 (ix2 R (0 : Fin 1)) - x1 (ix2 C (0 : Fin 1)) := by
  rw [val_main_v27_apply, val_main_v25_apply, val_main_v23_apply, val_main_v5_apply, val_main_v26_apply, val_main_v24_apply, val_main_v5_apply]
  have e1 : idx_main_v5 (idx_main_v23 (idx_main_v25 (ix2 R C))) = ix2 R (0 : Fin 1) :=
    funext fun a => Fin.ext (by match a with | ⟨0, _⟩ => exact Nat.div_one _ | ⟨1, _⟩ => rfl)
  have e2 : idx_main_v5 (idx_main_v24 (idx_main_v26 (ix2 R C))) = ix2 C (0 : Fin 1) :=
    funext fun a => Fin.ext (by match a with | ⟨0, _⟩ => exact Nat.div_one _ | ⟨1, _⟩ => rfl)
  rw [e1, e2]
  rfl

/-! ## The masked loss at (R, C) -/

theorem masked_apply (x0 x1 : S8192x1.Idx → EReal) (R C : Fin 8192) :
    val_main_v47 (F := Ideal) x0 x1 (ix2 R C)
      = if R < C then lossRE (x0 (ix2 R (0 : Fin 1)) - x0 (ix2 C (0 : Fin 1))) (x1 (ix2 R (0 : Fin 1)) - x1 (ix2 C (0 : Fin 1))) else 0 := by
  rw [val_main_v47_apply, mask_apply]
  simp only [val_main_call5_v1_apply, val_main_call5_v0_apply, val_main_cst_16_apply, val_main_v44_apply, val_main_v43_apply, val_main_cst_15_apply, val_main_v42_apply, val_main_v41_apply, val_main_v40_apply, val_main_v39_apply, val_main_call3_v0_apply, val_main_cst_14_apply, val_main_v38_apply, val_main_call2_v0_apply, val_main_cst_13_apply, val_main_v37_apply, val_main_call1_v0_apply, val_main_cst_12_apply, val_main_v36_apply, val_main_call0_v0_apply, val_main_call0_v1_apply, val_main_cst_10_apply, val_main_cst_11_apply, val_main_v35_apply, val_main_v34_apply, val_main_cst_9_apply, val_main_v33_apply, val_main_v32_apply, val_main_cst_8_apply, val_main_v31_apply, val_main_v30_apply, val_main_cst_7_apply, val_main_v29_apply, val_main_v28_apply, val_main_cst_6_apply, dt_apply, dp_apply]
  unfold lossRE targetE
  rw [← ofBits_one, ← ofBits_neg_one, ← Ideal.ofBits_zero_f32]
  by_cases h : R < C
  · rw [if_pos h, decide_eq_true h]
    exact select_one _ _
  · rw [if_neg h, decide_eq_false h]
    exact select_zero _ _

/-! ## The pairwise term on real arguments -/

theorem rank_ref (x0 x1 : S8192x1.Idx → EReal) (t p : Fin 8192 → ℝ)
    (h0 : ∀ q, x0 (ix2 q (0 : Fin 1)) = (t q : EReal)) (h1 : ∀ q, x1 (ix2 q (0 : Fin 1)) = (p q : EReal)) (i : S_.Idx) :
    val_main_v52 (F := Ideal) x0 x1 i
      = ((∑ R : Fin 8192, ∑ C : Fin 8192, (if R < C then lossR (t R - t C) (p R - p C) else 0) : ℝ) : EReal) := by
  have hre : ∀ R C : Fin 8192, val_main_v47 (F := Ideal) x0 x1 (ix2 R C)
      = (((if R < C then lossR (t R - t C) (p R - p C) else 0) : ℝ) : EReal) := by
    intro R C
    rw [masked_apply, h0, h0, h1, h1, ← EReal.coe_sub, ← EReal.coe_sub, lossRE_coe]
    split_ifs <;> rfl
  rw [val_main_v52_apply, val_main_cst_20_apply, val_main_v48_apply, val_main_cst_17_apply, sum_idx2]
  simp only [hre, ← coe_sum]
  show Ideal.ofBits .f32 0x3F800000#32 * (Ideal.ofBits .f32 0x00000000#32 + _) = _
  rw [ofBits_one, Ideal.ofBits_zero_f32, zero_add, ← EReal.coe_mul, one_mul]

end Cert.ReferenceIdeal.RefValue

end
-- ==== Proof.Finite.lean ====
/-
  What the precondition gives: every entry of both argument arrays is a real number.

  The precondition is the conjunction of two tests, each the "and" over all entries of |x| < +inf. If the conjunction is
  true then every entry of each array has max x (-x) below the top of the extended reals, so it is neither infinity.
-/
import proofs.«162285_j45062796869702_2_alg».proof.Pre_finite_inputs
import proofs.«162285_j45062796869702_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs Cert.Pre_finite_inputs.Gen

/-- A strict comparison that answers "true" is a strict inequality. -/
theorem lt_of_cmp_olt {a b : EReal} (h : Ideal.cmp .olt a b = 1#1) : a < b := by
  unfold Ideal.cmp at h
  by_contra hn
  simp [hn] at h

/-- The float pattern of +inf is the top of the extended reals. -/
theorem ofBits_inf : Ideal.ofBits .f32 0x7F800000#32 = ⊤ := by simp [Ideal.ofBits, Ideal.ieee]

/-- An extended real whose absolute value is below the top is a real. -/
theorem real_of_abs_lt_top (x : EReal) (h : max x (-x) < ⊤) : ∃ r : ℝ, x = (r : EReal) := by
  induction x with
  | bot => simp at h
  | coe r => exact ⟨r, rfl⟩
  | top => simp at h

instance : Subsingleton S_.Idx := ⟨fun _ _ => funext fun d => d.elim0⟩

/-- Under the precondition both argument arrays hold reals only. -/
theorem reals_of_pre (x0 x1 : FVec Ideal S8192x1 .f32) (h : fn (F := Ideal) x0 x1 = fun _ => 1#1) :
    (∀ i, ∃ r : ℝ, x0 i = (r : EReal)) ∧ (∀ i, ∃ r : ℝ, x1 i = (r : EReal)) := by
  have h8 := congrFun h ValueIdx.ix0
  dsimp only [fn] at h8
  obtain ⟨h3, h7⟩ := IntOp.andi_eq_one.mp h8
  constructor
  · intro i
    have hi := Host.reduce_andi_all _ _ _ _ _ h3 i
    have hlt : max (x0 i) (-(x0 i)) < Ideal.ofBits .f32 0x7F800000#32 := lt_of_cmp_olt hi
    rw [ofBits_inf] at hlt
    exact real_of_abs_lt_top _ hlt
  · intro i
    have hi := Host.reduce_andi_all _ _ _ _ _ h7 i
    have hlt : max (x1 i) (-(x1 i)) < Ideal.ofBits .f32 0x7F800000#32 := lt_of_cmp_olt hi
    rw [ofBits_inf] at hlt
    exact real_of_abs_lt_top _ hlt

end Cert.Finite

end
-- ==== Proof.Bridge.lean ====
/-
  The two results are one scalar.

  Both programs return 1 · mse + 1 · simloss + the rank term.
  * simloss is spelled the same way on both sides.
  * mse: the kernel sums the squared differences of the arguments reshaped to vectors, the reference sums them over the
    columns as they are; a reshape only renames the indices, so the two sums agree.
  * the rank term: the kernel's tail picks entry (8 i, 0) of the result array — the total of row tile i — for each tile,
    adds the sixteen totals from zero and halves the sum; under the precondition the entries are reals and this is the
    reference's sum over the pairs R < C (Proof/RankSum.lean, Proof/RefValue.lean).
-/
import proofs.«162285_j45062796869702_2_alg».proof.Proof.Blocks
import proofs.«162285_j45062796869702_2_alg».proof.Proof.RefValue
import proofs.«162285_j45062796869702_2_alg».proof.Proof.Finite

noncomputable section

namespace Cert.Bridge

open Idealize.ShloMosaic Idealize.ShloMosaic.TcCoe Idealize.ShloMosaic.ValueIdx Idealize.SL.Sem
open Cert.KernelIdeal Cert.KernelIdeal.Gen Cert.KernelIdeal.RunningSum Cert.KernelIdeal.ArrayValue
open Cert.KernelIdeal.Result Cert.KernelIdeal.Blocks Cert.PairLoss

variable (m : (ℓ : Loc nD τ sig) → Buf (Elt Ideal) ℓ)

/-! ## The tail's pick of the row totals -/

/-- Entry i of the picked vector is entry (8 i, 0) of the result array. -/
theorem perTile_apply (r20 : S128x128.Idx → EReal) (i : Fin 16) :
    perTile r20 (ix1 i) = r20 (ix2 (⟨8 * i.val, by have := i.isLt; omega⟩ : Fin 128) (0 : Fin 128)) := by
  unfold perTile
  refine (shapeCast_apply _ Facts₀.shapeCasts_S16x1x1_S16 (ix1 i) (ix3 i (0 : Fin 1) (0 : Fin 1)) ?_).trans ?_
  · rw [Shape.rowMajor_val_three, Shape.rowMajor_val_one]
    show (i.val * 1 + 0) * 1 + 0 = i.val
    omega
  refine (extractStridedSlice_apply _ _ Facts₀.slices_S16x8x128_S16x1x1_0_0_0 (ix3 i (0 : Fin 1) (0 : Fin 1))
    (ix3 i (0 : Fin 8) (0 : Fin 128)) (fun a => ?_)).trans ?_
  · match a with
    | ⟨0, _⟩ => exact (Nat.zero_add _).symm
    | ⟨1, _⟩ => rfl
    | ⟨2, _⟩ => rfl
  refine shapeCast_apply _ Facts₀.shapeCasts_S128x128_S16x8x128 (ix3 i (0 : Fin 8) (0 : Fin 128)) _ ?_
  rw [Shape.rowMajor_val_two, Shape.rowMajor_val_three]
  show 8 * i.val * 128 + 0 = (i.val * 8 + 0) * 128 + 0
  omega

/-- The host's sum of the picked vector from zero. -/
theorem sum_perTile (r20 : S128x128.Idx → EReal) (i : S_.Idx) :
    Host.reduceAdd (F := Ideal) (φ := .f32) (perTile r20) (constant (F := Ideal) S_ .f32 0x00000000#32)
        Facts₀.reducesTo_S16_S_d0 Facts₀.h_S_ i
      = Ideal.ofBits .f32 0x00000000#32 + ∑ k : S16.Idx, perTile r20 k := by
  generalize perTile r20 = y0
  simp only [Host.reduceAdd, Ideal.hostReduceAdd_def]
  exact Ideal.hostReduceAdd_total Facts₀.reducesTo_S16_S_d0 (fun b => b.elim0) y0 _ i

/-! ## The mean squared difference -/

theorem sum_sqDiff (a0 a1 : S8192x1.Idx → EReal) (i : S_.Idx) :
    Host.reduceAdd (F := Ideal) (φ := .f32) (sqDiff a0 a1) (constant (F := Ideal) S_ .f32 0x00000000#32)
        Facts₀.reducesTo_S8192_S_d0 Facts₀.h_S_ i
      = Ideal.ofBits .f32 0x00000000#32 + ∑ k : S8192.Idx, sqDiff a0 a1 k := by
  generalize sqDiff a0 a1 = y0
  simp only [Host.reduceAdd, Ideal.hostReduceAdd_def]
  exact Ideal.hostReduceAdd_total Facts₀.reducesTo_S8192_S_d0 (fun b => b.elim0) y0 _ i

/-- The kernel's and the reference's mean squared differences agree. -/
theorem mse_eq (c : Dev nD) (i : S_.Idx) :
    (V m c main_v5 : S_.Idx → EReal) i = Cert.ReferenceIdeal.Read.val_main_v3 (F := Ideal) (A0 m c) (A1 m c) i := by
  rw [V_mse m c, Cert.ReferenceIdeal.Read.val_main_v3_apply, Cert.ReferenceIdeal.Read.val_main_v2_apply]
  show Ideal.div (Host.reduceAdd (F := Ideal) (φ := .f32) (sqDiff (A0 m c) (A1 m c)) (constant (F := Ideal) S_ .f32 0x00000000#32)
        Facts₀.reducesTo_S8192_S_d0 Facts₀.h_S_ i) (Ideal.ofBits .f32 0x46000000#32)
      = Ideal.div (Ideal.ofBits .f32 0x00000000#32 + ∑ j : S8192x1.Idx, Cert.ReferenceIdeal.Read.val_main_v1 (F := Ideal) (A0 m c) (A1 m c) j)
          (Ideal.ofBits .f32 0x46000000#32)
  rw [sum_sqDiff]
  refine congrArg (fun s => Ideal.div (Ideal.ofBits .f32 0x00000000#32 + s) (Ideal.ofBits .f32 0x46000000#32)) ?_
  exact Equiv.sum_comp (Shape.reshapeEquiv Facts₀.shapeCasts_S8192x1_S8192)
    (fun k => Cert.ReferenceIdeal.Read.val_main_v1 (F := Ideal) (A0 m c) (A1 m c) k)

/-! ## The rank term -/

theorem rank_eq (c : Dev nD)
    (hpre : Cert.Pre_finite_inputs.fn (F := Ideal) (m ((c.tc : Thread nD τ).loc main_arg0)) (m ((c.tc : Thread nD τ).loc main_arg1)) = fun _ => 1#1)
    (i : S_.Idx) :
    mulf (F := Ideal) (φ := .f32) (constant (F := Ideal) S_ .f32 0x3F000000#32)
        (Host.reduceAdd (F := Ideal) (φ := .f32) (perTile (resultArr m c)) (constant (F := Ideal) S_ .f32 0x00000000#32)
          Facts₀.reducesTo_S16_S_d0 Facts₀.h_S_) i
      = Cert.ReferenceIdeal.Read.val_main_v52 (F := Ideal) (A0 m c) (A1 m c) i := by
  obtain ⟨hr0, hr1⟩ := Cert.Finite.reals_of_pre (A0 m c) (A1 m c) hpre
  choose t0 ht0 using hr0
  choose p0 hp0 using hr1
  rw [Cert.ReferenceIdeal.RefValue.rank_ref (A0 m c) (A1 m c) (fun q => t0 (ix2 q (0 : Fin 1))) (fun q => p0 (ix2 q (0 : Fin 1)))
    (fun q => ht0 _) (fun q => hp0 _) i]
  rw [← kernel_rank rowOf (fun _ _ => rfl) (A0 m c) (A1 m c) _ _ (fun q => ht0 _) (fun q => hp0 _) (tileN m c) (tileN_eq m c)]
  show Ideal.ofBits .f32 0x3F000000#32 * Host.reduceAdd (F := Ideal) (φ := .f32) (perTile (resultArr m c))
      (constant (F := Ideal) S_ .f32 0x00000000#32) Facts₀.reducesTo_S16_S_d0 Facts₀.h_S_ i = _
  rw [ofBits_half, sum_perTile, Ideal.ofBits_zero_f32, sum_idx1]
  refine congrArg (fun s => ((1 / 2 : ℝ) : EReal) * (0 + s)) ?_
  refine Finset.sum_congr rfl fun a _ => ?_
  rw [perTile_apply]
  show rowTotal m c (8 * a.val / 8) = _
  unfold rowTotal
  rw [Nat.mul_div_cancel_left _ (by norm_num : 0 < 8)]

/-! ## The results -/

/-- The reference's result term of the kernel's arguments is the scalar the kernel's program ends with. -/
theorem result_eq (c : Dev nD)
    (hpre : Cert.Pre_finite_inputs.fn (F := Ideal) (m ((c.tc : Thread nD τ).loc main_arg0)) (m ((c.tc : Thread nD τ).loc main_arg1)) = fun _ => 1#1) :
    Cert.ReferenceIdeal.Read.val_main_v53 (F := Ideal) (A0 m c) (A1 m c)
      = tailTerm (resultArr m c) (V m c main_v5) (V m c main_v17) := by
  funext i
  rw [Cert.ReferenceIdeal.Read.val_main_v53_apply, Cert.ReferenceIdeal.Read.val_main_v51_apply,
    Cert.ReferenceIdeal.Read.val_main_v49_apply, Cert.ReferenceIdeal.Read.val_main_v50_apply,
    ← rank_eq m c hpre i, ← mse_eq m c i, ← V_sim m c]
  rfl

end Cert.Bridge

end
-- ==== Proof.lean ====
/-
  The five claims of this certificate.

  The kernel computes a loss of two columns t and p of 8192 numbers: the mean squared difference, the clamped mean of
  1 - cosine, and a pairwise ranking term. The first two it computes on the host exactly as the reference does. For the
  third it tiles the 8192 × 8192 square of ordered pairs into 16 × 16 tiles, sums over every tile the pair loss
  (dt > 0: max 0 (0 - dp); dt < 0: max 0 dp; dt = 0: |dp|, with dt = t_r - t_c and dp = p_r - p_c), accumulates the tiles of
  a row of tiles in a scalar, writes each row total out, and on the host halves the sum of the sixteen totals. The
  reference sums max 0 (-(target) * dp) over the pairs r < c only. The two spellings of the loss agree case by case; the
  loss is symmetric under swapping the pair and zero on the diagonal, so half the full-square sum is the sum over r < c.
  That identity needs the entries to be reals, which is what the precondition says.

  The frames of the two kernel programs are the generated ones; the reference's frame is its generated run with the result
  dropped; the idealization rewrote nothing; the equality of results is Proof/Bridge.lean over the kernel's run read back
  (Proof/KernelResult.lean) and the reference's generated run.
-/
import proofs.«162285_j45062796869702_2_alg».proof.Defs
import proofs.«162285_j45062796869702_2_alg».proof.Proof.Gen.Kernel
import proofs.«162285_j45062796869702_2_alg».proof.Proof.Gen.Kernel.Skeleton
import proofs.«162285_j45062796869702_2_alg».proof.Proof.Gen.Kernel.Launch
import proofs.«162285_j45062796869702_2_alg».proof.Proof.Gen.Kernel.Points
import proofs.«162285_j45062796869702_2_alg».proof.Proof.Gen.Kernel.Frame
import proofs.«162285_j45062796869702_2_alg».proof.Proof.Gen.KernelIdeal
import proofs.«162285_j45062796869702_2_alg».proof.Proof.Gen.KernelIdeal.Skeleton
import proofs.«162285_j45062796869702_2_alg».proof.Proof.Gen.KernelIdeal.Launch
import proofs.«162285_j45062796869702_2_alg».proof.Proof.Gen.KernelIdeal.Points
import proofs.«162285_j45062796869702_2_alg».proof.Proof.Gen.KernelIdeal.Frame
import proofs.«162285_j45062796869702_2_alg».proof.Proof.Gen.ReferenceIdeal
import proofs.«162285_j45062796869702_2_alg».proof.Proof.Gen.ReferenceIdeal.Run
import proofs.«162285_j45062796869702_2_alg».proof.Proof.Gen.ReferenceIdeal.Read
import proofs.«162285_j45062796869702_2_alg».proof.Proof.Gen.Pre_finite_inputs
import proofs.«162285_j45062796869702_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the same scalar. -/
theorem algebraic : Cert.algebraic_KernelIdeal_ReferenceIdeal := by
  intro m ρ m' ρ' hpre hagree
  refine ⟨fun c => Cert.KernelIdeal.Result.tailTerm (Cert.KernelIdeal.ArrayValue.resultArr m c)
      (Cert.KernelIdeal.Gen.V m c Cert.KernelIdeal.main_v5) (Cert.KernelIdeal.Gen.V m c Cert.KernelIdeal.main_v17),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2]
  exact Cert.Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
